-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x11x384x384 : Shape := ⟨4, ![32, 11, 384, 384]⟩
abbrev S32x384x384 : Shape := ⟨3, ![32, 384, 384]⟩
abbrev S_ : Shape := ⟨0, ![]⟩

class Facts : Prop where
  bcast_S_S32x11x384x384 : S_.BroadcastsInDim S32x11x384x384 (![] : Fin 0 → Fin S32x11x384x384.rank)
  reducesTo_S32x11x384x384_S_d0_1_2_3 : S32x11x384x384.ReducesTo [0, 1, 2, 3] S_
  h_S_ : 0 < S_.numel

variable [Facts]

def fn {F : FTy → Type} [FloatOps F] (main_arg0 : FVec F S32x11x384x384 .f32) (main_arg1 : FVec F S32x11x384x384 .f32) (main_arg2 : IVec S32x384x384 32) : IVec S_ 1 :=
  let main_v0 : FVec F S32x11x384x384 .f32 := Host.absf main_arg0
  let main_cst : FVec F S_ .f32 := constant S_ .f32 0x7F800000#32
  let main_v1 : FVec F S32x11x384x384 .f32 := broadcastInDim S32x11x384x384 ![] bcast_S_S32x11x384x384 main_cst
  let main_v2 : IVec S32x11x384x384 1 := cmpf .olt main_v0 main_v1
  let main_c : IVec S_ 1 := constantI S_ 1 1#1
  let main_v3 : IVec S_ 1 := (fun x v => Host.reduce IntOp.andi x v reducesTo_S32x11x384x384_S_d0_1_2_3 h_S_) main_v2 main_c
  let main_v4 : FVec F S32x11x384x384 .f32 := Host.absf main_arg1
  let main_cst_0 : FVec F S_ .f32 := constant S_ .f32 0x7F800000#32
  let main_v5 : FVec F S32x11x384x384 .f32 := broadcastInDim S32x11x384x384 ![] bcast_S_S32x11x384x384 main_cst_0
  let main_v6 : IVec S32x11x384x384 1 := cmpf .olt main_v4 main_v5
  let main_c_1 : IVec S_ 1 := constantI S_ 1 1#1
  let main_v7 : IVec S_ 1 := (fun x v => Host.reduce IntOp.andi x v reducesTo_S32x11x384x384_S_d0_1_2_3 h_S_) main_v6 main_c_1
  let main_v8 : IVec S_ 1 := andi main_v3 main_v7
  main_v8
-- ==== Kernel.lean ====
abbrev S32x11x384x384 : Shape := ⟨4, ![32, 11, 384, 384]⟩
abbrev S32x384x384 : Shape := ⟨3, ![32, 384, 384]⟩
abbrev S32x8x128 : Shape := ⟨3, ![32, 8, 128]⟩
abbrev S1x11x384x384 : Shape := ⟨4, ![1, 11, 384, 384]⟩
abbrev S1x384x384 : Shape := ⟨3, ![1, 384, 384]⟩
abbrev S1x8x128 : Shape := ⟨3, ![1, 8, 128]⟩
abbrev S384x384 : Shape := ⟨2, ![384, 384]⟩
abbrev S1x1x384x384 : Shape := ⟨4, ![1, 1, 384, 384]⟩
abbrev S1 : Shape := ⟨1, ![1]⟩
abbrev S1x1x1 : Shape := ⟨3, ![1, 1, 1]⟩
abbrev S8x128 : Shape := ⟨2, ![8, 128]⟩
abbrev S32x1x1 : Shape := ⟨3, ![32, 1, 1]⟩
abbrev S32 : Shape := ⟨1, ![32]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S32x11x384x384, .f32⟩
  | .hbm, ⟨1, _⟩ => ⟨S32x11x384x384, .f32⟩
  | .hbm, ⟨2, _⟩ => ⟨S32x384x384, .i32⟩
  | .hbm, ⟨3, _⟩ => ⟨S32x8x128, .f32⟩
  | .hbm, ⟨4, _⟩ => ⟨S32x1x1, .f32⟩
  | .hbm, ⟨5, _⟩ => ⟨S32, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x11x384x384, .f32⟩
  | .local _ .vmem, ⟨1, _⟩ => ⟨S1x11x384x384, .f32⟩
  | .local _ .vmem, ⟨2, _⟩ => ⟨S1x11x384x384, .f32⟩
  | .local _ .vmem, ⟨3, _⟩ => ⟨S1x11x384x384, .f32⟩
  | .local _ .vmem, ⟨4, _⟩ => ⟨S1x384x384, .i32⟩
  | .local _ .vmem, ⟨5, _⟩ => ⟨S1x384x384, .i32⟩
  | .local _ .vmem, ⟨6, _⟩ => ⟨S1x8x128, .f32⟩
  | .local _ .vmem, ⟨7, _⟩ => ⟨S1x8x128, .f32⟩
  | _, _ => ⟨S32x11x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x11x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x11x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384x384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x11x384x384_S1x1x384x384_0_0_0_0 : ∀ a, (![0, 0, 0, 0] : Fin 4 → Nat) a + S1x1x384x384.size a ≤ S1x11x384x384.size a
  h_S1x1x384x384 : 0 < S1x1x384x384.numel
  shapeCasts_S1x1x384x384_S384x384 : S1x1x384x384.ShapeCasts S384x384
  inb_S1x11x384x384_S1x1x384x384_0_1_0_0 : ∀ a, (![0, 1, 0, 0] : Fin 4 → Nat) a + S1x1x384x384.size a ≤ S1x11x384x384.size a
  inb_S1x11x384x384_S1x1x384x384_0_2_0_0 : ∀ a, (![0, 2, 0, 0] : Fin 4 → Nat) a + S1x1x384x384.size a ≤ S1x11x384x384.size a
  inb_S1x11x384x384_S1x1x384x384_0_3_0_0 : ∀ a, (![0, 3, 0, 0] : Fin 4 → Nat) a + S1x1x384x384.size a ≤ S1x11x384x384.size a
  inb_S1x11x384x384_S1x1x384x384_0_4_0_0 : ∀ a, (![0, 4, 0, 0] : Fin 4 → Nat) a + S1x1x384x384.size a ≤ S1x11x384x384.size a
  inb_S1x11x384x384_S1x1x384x384_0_5_0_0 : ∀ a, (![0, 5, 0, 0] : Fin 4 → Nat) a + S1x1x384x384.size a ≤ S1x11x384x384.size a
  inb_S1x11x384x384_S1x1x384x384_0_6_0_0 : ∀ a, (![0, 6, 0, 0] : Fin 4 → Nat) a + S1x1x384x384.size a ≤ S1x11x384x384.size a
  inb_S1x11x384x384_S1x1x384x384_0_7_0_0 : ∀ a, (![0, 7, 0, 0] : Fin 4 → Nat) a + S1x1x384x384.size a ≤ S1x11x384x384.size a
  inb_S1x11x384x384_S1x1x384x384_0_8_0_0 : ∀ a, (![0, 8, 0, 0] : Fin 4 → Nat) a + S1x1x384x384.size a ≤ S1x11x384x384.size a
  inb_S1x11x384x384_S1x1x384x384_0_9_0_0 : ∀ a, (![0, 9, 0, 0] : Fin 4 → Nat) a + S1x1x384x384.size a ≤ S1x11x384x384.size a
  inb_S1x11x384x384_S1x1x384x384_0_10_0_0 : ∀ a, (![0, 10, 0, 0] : Fin 4 → Nat) a + S1x1x384x384.size a ≤ S1x11x384x384.size a
  inb_S1x384x384_S1x384x384_0_0_0 : ∀ a, (![0, 0, 0] : Fin 3 → Nat) a + S1x384x384.size a ≤ S1x384x384.size a
  h_S1x384x384 : 0 < S1x384x384.numel
  shapeCasts_S1x384x384_S384x384 : S1x384x384.ShapeCasts S384x384
  shapeCasts_S384x384_S1x384x384 : S384x384.ShapeCasts S1x384x384
  reduces_S1x384x384_S1 : S1x384x384.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  dot_S384x384_S384x384_S384x384_1_0_0_1_n_n_wf : DotDims.WF S384x384 S384x384 S384x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x11x384x384.size a ≤ S32x11x384x384.size a
  hwx0_0 : ∀ i : grid0.Coords, EltTy.bits .f32 = 32 ∨ (Rect.block (s := S32x11x384x384) S1x11x384x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x11x384x384.size a ≤ S32x11x384x384.size a
  hwx0_1 : ∀ i : grid0.Coords, EltTy.bits .f32 = 32 ∨ (Rect.block (s := S32x11x384x384) S1x11x384x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x384x384.size a ≤ S32x384x384.size a
  hwx0_2 : ∀ i : grid0.Coords, EltTy.bits .i32 = 32 ∨ (Rect.block (s := S32x384x384) S1x384x384.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S32x8x128.size a
  hwx0_3 : ∀ i : grid0.Coords, EltTy.bits .f32 = 32 ∨ (Rect.block (s := S32x8x128) S1x8x128.size (cc0_transform_3 i) (hinb0_3 i)).WholeWords (EltTy.packing .f32)

variable [Facts₀]

def dot_S384x384_S384x384_S384x384_1_0_0_1_n_n : DotDims S384x384 S384x384 S384x384 where
  lhsContracting := [1]
  rhsContracting := [0]
  lhsNonContracting := [0]
  rhsNonContracting := [1]
  lhsBatch := []
  rhsBatch := []
  wf := dot_S384x384_S384x384_S384x384_1_0_0_1_n_n_wf

abbrev win0_0 : Pipeline.Window sig grid0 :=
  Pipeline.Window.ofSpec (Memref.whole main_arg0) S1x11x384x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x11x384x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x384x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x11x384x384 : Shape := ⟨4, ![32, 11, 384, 384]⟩
abbrev S32x384x384 : Shape := ⟨3, ![32, 384, 384]⟩
abbrev S_ : Shape := ⟨0, ![]⟩
abbrev S32x1x384x384 : Shape := ⟨4, ![32, 1, 384, 384]⟩

abbrev nBuf : Space → Nat
  | .hbm => 41
  | .vmem => 0
  | .smem => 0
  | _ => 0

abbrev bufTy : (tb : Table) → Fin (tcTables nBuf tb) → BufTy
  | .hbm, ⟨0, _⟩ => ⟨S32x11x384x384, .f32⟩
  | .hbm, ⟨1, _⟩ => ⟨S32x11x384x384, .f32⟩
  | .hbm, ⟨2, _⟩ => ⟨S32x384x384, .i32⟩
  | .hbm, ⟨3, _⟩ => ⟨S32x11x384x384, .f32⟩
  | .hbm, ⟨4, _⟩ => ⟨S32x11x384x384, .f32⟩
  | .hbm, ⟨5, _⟩ => ⟨S32x11x384x384, .f32⟩
  | .hbm, ⟨6, _⟩ => ⟨S32x11x384x384, .f32⟩
  | .hbm, ⟨7, _⟩ => ⟨S_, .f32⟩
  | .hbm, ⟨8, _⟩ => ⟨S32x11x384x384, .f32⟩
  | .hbm, ⟨9, _⟩ => ⟨S32x11x384x384, .f32⟩
  | .hbm, ⟨10, _⟩ => ⟨S32x11x384x384, .f32⟩
  | .hbm, ⟨11, _⟩ => ⟨S_, .f32⟩
  | .hbm, ⟨12, _⟩ => ⟨S32x384x384, .f32⟩
  | .hbm, ⟨13, _⟩ => ⟨S_, .f32⟩
  | .hbm, ⟨14, _⟩ => ⟨S32x384x384, .f32⟩
  | .hbm, ⟨15, _⟩ => ⟨S32x384x384, .f32⟩
  | .hbm, ⟨16, _⟩ => ⟨S32x1x384x384, .f32⟩
  | .hbm, ⟨17, _⟩ => ⟨S32x11x384x384, .f32⟩
  | .hbm, ⟨18, _⟩ => ⟨S32x11x384x384, .f32⟩
  | .hbm, ⟨19, _⟩ => ⟨S32x11x384x384, .f32⟩
  | .hbm, ⟨20, _⟩ => ⟨S_, .f32⟩
  | .hbm, ⟨21, _⟩ => ⟨S32x384x384, .f32⟩
  | .hbm, ⟨22, _⟩ => ⟨S32x1x384x384, .f32⟩
  | .hbm, ⟨23, _⟩ => ⟨S32x11x384x384, .f32⟩
  | .hbm, ⟨24, _⟩ => ⟨S32x11x384x384, .f32⟩
  | .hbm, ⟨25, _⟩ => ⟨S_, .f32⟩
  | .hbm, ⟨26, _⟩ => ⟨S32x384x384, .f32⟩
  | .hbm, ⟨27, _⟩ => ⟨S32x384x384, .f32⟩
  | .hbm, ⟨28, _⟩ => ⟨S32x384x384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S32x384x384, .f32⟩
  | .hbm, ⟨33, _⟩ => ⟨S32x384x384, .f32⟩
  | .hbm, ⟨34, _⟩ => ⟨S_, .f32⟩
  | .hbm, ⟨35, _⟩ => ⟨S32x384x384, .f32⟩
  | .hbm, ⟨36, _⟩ => ⟨S32x384x384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S32x11x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S_S32x11x384x384 : S_.BroadcastsInDim S32x11x384x384 (![] : Fin 0 → Fin S32x11x384x384.rank)
  reducesTo_S32x11x384x384_S32x384x384_d1 : S32x11x384x384.ReducesTo [1] S32x384x384
  h_S_ : 0 < S_.numel
  bcast_S_S32x384x384 : S_.BroadcastsInDim S32x384x384 (![] : Fin 0 → Fin S32x384x384.rank)
  bcast_S32x384x384_S32x1x384x384_0_2_3 : S32x384x384.BroadcastsInDim S32x1x384x384 (![0, 2, 3] : Fin 3 → Fin S32x1x384x384.rank)
  bcast_S32x1x384x384_S32x11x384x384_0_1_2_3 : S32x1x384x384.BroadcastsInDim S32x11x384x384 (![0, 1, 2, 3] : Fin 4 → Fin S32x11x384x384.rank)
  reducesTo_S32x384x384_S_d0_1_2 : S32x384x384.ReducesTo [0, 1, 2] S_
  dot_S32x11x384x384_S32x11x384x384_S32x11x384x384_3_2_2_3_01_01_wf : DotDims.WF S32x11x384x384 S32x11x384x384 S32x11x384x384 [3] [2] [2] [3] [0, 1] [0, 1]

variable [Facts₀]

def dot_S32x11x384x384_S32x11x384x384_S32x11x384x384_3_2_2_3_01_01 : DotDims S32x11x384x384 S32x11x384x384 S32x11x384x384 where
  lhsContracting := [3]
  rhsContracting := [2]
  lhsNonContracting := [2]
  rhsNonContracting := [3]
  lhsBatch := [0, 1]
  rhsBatch := [0, 1]
  wf := dot_S32x11x384x384_S32x11x384x384_S32x11x384x384_3_2_2_3_01_01_wf

class Facts : Prop extends Facts₀ where

variable [Facts]
-- ==== Proof.LibOnlineSoftmax.lean ====
/-
  The running (maximum, rescaled sum) pair of a one-pass softmax denominator, on the extended reals,
  against the two-pass softmax followed by a maximum over the classes.

  For finite logits a_0 … a_n the pass keeps m_k = max(a_0 … a_k) and s_k = Σ_{c ≤ k} exp(a_c − m_k):
  one step sends (m, s) to (m', s · exp(m − m') + exp(a − m')) with m' = max m a, because
  exp(a_c − m) · exp(m − m') = exp(a_c − m').  From (−∞, 0) the first step gives (a_0, 1): exp(−∞) = 0.
  The largest softmax probability is exp(M − M) / S = 1 / S with M the largest logit and
  S = Σ_c exp(a_c − M), every other probability being exp(a_c − M) / S ≤ 1 / S.
-/
import Mathlib
import Idealize.ShloMosaic.PureOps.Ideal

noncomputable section

namespace Cert.CenterLoss

open Idealize.ShloMosaic

/-- One step of the pass: the new running maximum, and the running sum rescaled to it plus the new term. -/
def osStep (ms : EReal × EReal) (a : EReal) : EReal × EReal :=
  (max ms.1 a, ms.2 * Ideal.exp (ms.1 - max ms.1 a) + Ideal.exp (a - max ms.1 a))

/-- The exponential of a difference of two finite values is the real exponential of the difference. -/
theorem exp_coe_sub (a b : ℝ) :
    Ideal.exp ((a : EReal) - (b : EReal)) = ((Real.exp (a - b) : ℝ) : EReal) := by
  rw [← EReal.coe_sub]; rfl

/-- The larger of two finite values, taken on the extended reals, is the finite larger one. -/
theorem max_coe_coe (a b : ℝ) : max (a : EReal) (b : EReal) = ((max a b : ℝ) : EReal) :=
  (EReal.coe_strictMono.monotone.map_max).symm

/-- A finite sum of finite values is the finite value of the real sum. -/
theorem coe_finset_sum {ι : Type*} (s : Finset ι) (f : ι → ℝ) :
    (∑ c ∈ s, ((f c : ℝ) : EReal)) = ((∑ c ∈ s, f c : ℝ) : EReal) := by
  classical
  induction s using Finset.induction_on with
  | empty => simp
  | insert a s ha ih => rw [Finset.sum_insert ha, Finset.sum_insert ha, ih, EReal.coe_add]

/-- The maximum over all classes of finite values, started from −∞, is the largest of them. -/
theorem fold_max_coe_eq {ι : Type*} [Fintype ι] (f : ι → ℝ) (m : ℝ)
    (hle : ∀ c, f c ≤ m) (hex : ∃ c, f c = m) :
    Finset.univ.fold max (⊥ : EReal) (fun c => ((f c : ℝ) : EReal)) = (m : EReal) := by
  apply le_antisymm
  · rw [Finset.fold_max_le]
    exact ⟨bot_le, fun c _ => EReal.coe_le_coe_iff.mpr (hle c)⟩
  · rw [Finset.le_fold_max]
    obtain ⟨c, hc⟩ := hex
    exact Or.inr ⟨c, Finset.mem_univ c, by rw [hc]⟩

/-- The pass over a nonempty list of finite logits ends at (M, Σ exp(x − M)), M the largest logit. -/
theorem foldl_osStep_coe (l : List ℝ) (hl : l ≠ []) :
    ∃ m s : ℝ, List.foldl osStep (⊥, 0) (l.map fun x => ((x : ℝ) : EReal)) = ((m : EReal), (s : EReal))
      ∧ (∀ x ∈ l, x ≤ m) ∧ m ∈ l ∧ s = (l.map fun x => Real.exp (x - m)).sum := by
  induction l using List.reverseRecOn with
  | nil => exact absurd rfl hl
  | append_singleton l a ih =>
    by_cases h : l = []
    · subst h
      refine ⟨a, 1, ?_, ?_, ?_, ?_⟩
      · have h1 : max (⊥ : EReal) (a : EReal) = (a : EReal) := max_eq_right bot_le
        have h2 : (⊥ : EReal) - (a : EReal) = ⊥ := EReal.bot_sub _
        simp only [List.nil_append, List.map_cons, List.map_nil, List.foldl_cons, List.foldl_nil,
          osStep, h1, h2, Ideal.exp_bot, mul_zero, zero_add, exp_coe_sub, sub_self, Real.exp_zero,
          EReal.coe_one]
      · intro x hx
        simp at hx
        exact hx.le
      · simp
      · simp
    · obtain ⟨m, s, hf, hle, hmem, hs⟩ := ih h
      refine ⟨max m a, s * Real.exp (m - max m a) + Real.exp (a - max m a), ?_, ?_, ?_, ?_⟩
      · rw [List.map_append, List.foldl_append, hf]
        simp only [List.map_cons, List.map_nil, List.foldl_cons, List.foldl_nil, osStep,
          max_coe_coe, exp_coe_sub, ← EReal.coe_mul, ← EReal.coe_add]
      · intro x hx
        rcases List.mem_append.mp hx with hx | hx
        · exact (hle x hx).trans (le_max_left _ _)
        · simp at hx
          rw [hx]; exact le_max_right _ _
      · rcases max_cases m a with ⟨h1, _⟩ | ⟨h1, _⟩
        · rw [h1]; exact List.mem_append_left _ hmem
        · rw [h1]; simp
      · rw [List.map_append, List.sum_append, hs, ← List.sum_map_mul_right]
        congr 1
        · congr 1
          apply List.map_congr_left
          intro x _
          rw [← Real.exp_add]; congr 1; ring
        · simp

/-- The reciprocal of the one-pass denominator is the largest two-pass softmax probability. -/
theorem online_eq_softmax_max {n : ℕ} (r : Fin (n + 1) → ℝ) :
    Ideal.div 1 (List.foldl osStep (⊥, 0) (List.ofFn fun c => ((r c : ℝ) : EReal))).2
      = Finset.univ.fold max ⊥ (fun c : Fin (n + 1) =>
          Ideal.div (Ideal.exp (((r c : ℝ) : EReal) - max ⊥ (Finset.univ.fold max ⊥ (fun c' : Fin (n + 1) => ((r c' : ℝ) : EReal)))))
            (0 + ∑ c' : Fin (n + 1), Ideal.exp (((r c' : ℝ) : EReal) - max ⊥ (Finset.univ.fold max ⊥ (fun c'' : Fin (n + 1) => ((r c'' : ℝ) : EReal)))))) := by
  obtain ⟨m, s, hf, hle, hmem, hs⟩ := foldl_osStep_coe (List.ofFn r) (by simp)
  have hf' : List.foldl osStep (⊥, 0) (List.ofFn fun c => ((r c : ℝ) : EReal))
      = ((m : EReal), (s : EReal)) := by
    rw [← hf, List.map_ofFn]; rfl
  have hle' : ∀ c, r c ≤ m := fun c => hle _ ((List.mem_ofFn' r _).mpr ⟨c, rfl⟩)
  have hex : ∃ c, r c = m := (List.mem_ofFn' r m).mp hmem
  have hs' : s = ∑ c, Real.exp (r c - m) := by
    rw [hs, List.map_ofFn, List.sum_ofFn]; rfl
  have hpos : 0 < s := by
    rw [hs']; exact Finset.sum_pos (fun c _ => Real.exp_pos _) Finset.univ_nonempty
  have hM := fold_max_coe_eq r m hle' hex
  have hbot : max (⊥ : EReal) (m : EReal) = (m : EReal) := max_eq_right bot_le
  rw [hf']
  simp only [hM, hbot, exp_coe_sub, coe_finset_sum, zero_add, ← hs']
  simp only [Ideal.div_coe hpos.ne', one_mul, ← EReal.coe_mul]
  obtain ⟨c0, hc0⟩ := hex
  apply le_antisymm
  · rw [Finset.le_fold_max]
    refine Or.inr ⟨c0, Finset.mem_univ _, ?_⟩
    rw [hc0, sub_self, Real.exp_zero, one_mul]
  · rw [Finset.fold_max_le]
    refine ⟨bot_le, fun c _ => EReal.coe_le_coe_iff.mpr ?_⟩
    have h1 : Real.exp (r c - m) ≤ 1 := by
      rw [← Real.exp_zero]; exact Real.exp_le_exp.mpr (sub_nonpos.mpr (hle' c))
    have h2 : 0 ≤ 1 / s := by positivity
    calc Real.exp (r c - m) * (1 / s) ≤ 1 * (1 / s) := mul_le_mul_of_nonneg_right h1 h2
      _ = 1 / s := one_mul _

end Cert.CenterLoss

end
-- ==== Proof.Spec.lean ====
/-
  The loss as ONE function of the three argument arrays, index by index.

  For image n, class c and pixel (h, w) the logit is
      x[n,c,h,w]² + centers[n,c,h,w]² − 2 · Σ_k x[n,c,h,k] · centers[n,c,k,w];
  over the eleven classes of a pixel the one-pass pair (running maximum, rescaled running sum) is folded,
  the reciprocal of its sum is weighted by the pixel's label and clamped, the clamped values are summed
  over the pixels of an image, the images' totals are summed, and the sum is divided by the pixel count.
-/
import proofs.«120872_j1099511628281_2_alg».proof.Proof.LibOnlineSoftmax
import Idealize.ShloMosaic.Lib.ValueIdx

noncomputable section

namespace Cert.CenterLoss

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The logit of class c at pixel (h, w) of image n. -/
def logit (X C : (⟨4, ![32, 11, 384, 384]⟩ : Shape).Idx → EReal) (n : Fin 32) (c : Fin 11) (h w : Fin 384) : EReal :=
  X (ix4 n c h w) * X (ix4 n c h w) + C (ix4 n c h w) * C (ix4 n c h w)
    - Ideal.ofBits .f32 0x40000000#32 * ∑ k : Fin 384, X (ix4 n c h k) * C (ix4 n c k w)

/-- The reciprocal of the one-pass softmax denominator over the eleven classes of a pixel. -/
def recipSum (X C : (⟨4, ![32, 11, 384, 384]⟩ : Shape).Idx → EReal) (n : Fin 32) (h w : Fin 384) : EReal :=
  Ideal.div (Ideal.ofBits .f32 0x3F800000#32)
    (List.foldl osStep (Ideal.ofBits .f32 0xFF800000#32, Ideal.ofBits .f32 0x00000000#32)
      (List.ofFn fun c : Fin 11 => logit X C n c h w)).2

/-- A pixel's value weighted by its label (the label word read as a signed integer) and clamped between the two
    clamp constants. -/
def clampW (q : EReal) (l : BitVec 32) : EReal :=
  min (Ideal.ofBits .f32 0x5368D4A5#32) (max (Ideal.ofBits .f32 0x2B8CBCCC#32) (q * ((l.toInt : ℝ) : EReal)))

/-- The sum over the pixels of image n. -/
def imageTotal (X C : (⟨4, ![32, 11, 384, 384]⟩ : Shape).Idx → EReal) (L : (⟨3, ![32, 384, 384]⟩ : Shape).Idx → BitVec 32)
    (n : Fin 32) : EReal :=
  ∑ h : Fin 384, ∑ w : Fin 384, clampW (recipSum X C n h w) (L (ix3 n h w))

/-- The loss: the images' totals summed from zero, divided by the pixel count 32 · 384 · 384. -/
def loss (X C : (⟨4, ![32, 11, 384, 384]⟩ : Shape).Idx → EReal) (L : (⟨3, ![32, 384, 384]⟩ : Shape).Idx → BitVec 32) : EReal :=
  Ideal.div (Ideal.ofBits .f32 0x00000000#32 + ∑ n : Fin 32, imageTotal X C L n) (Ideal.ofBits .f32 0x4A900000#32)

end Cert.CenterLoss

end
-- ==== Proof.Consts.lean ====
/-
  The float words of the two programs that the proof evaluates: the infinities, zero is the library's,
  one, and two. (The clamp constants and the divisor are the same words on both sides and are never evaluated.)
-/
import Mathlib
import Idealize.ShloMosaic.PureOps.Ideal
import Idealize.ShloMosaic.PureOps.Ideal.Laws

noncomputable section

namespace Cert.CenterLoss.Consts

open Idealize.ShloMosaic

/-- The word 0xFF800000 denotes −∞. -/
theorem ofBits_neg_inf : Ideal.ofBits .f32 0xFF800000#32 = ⊥ := by
  simp [Ideal.ofBits, Ideal.ieee]

/-- The word 0x7F800000 denotes +∞. -/
theorem ofBits_pos_inf : Ideal.ofBits .f32 0x7F800000#32 = ⊤ := by
  simp [Ideal.ofBits, Ideal.ieee]

/-- The word 0x3F800000 denotes 1. -/
theorem ofBits_one : Ideal.ofBits .f32 0x3F800000#32 = 1 :=
  IdealRules.sign_bit.ideal_onePat .f32

/-- The word 0x40000000 denotes 2. -/
theorem ofBits_two : Ideal.ofBits .f32 0x40000000#32 = ((2 : ℝ) : EReal) := by
  simp [Ideal.ofBits, Ideal.ieee, -EReal.coe_mul]
  norm_num

end Cert.CenterLoss.Consts

end
-- ==== Proof.LibPlainMatmul.lean ====
/-
  A plain matrix product read at a row and a column.

  For a product of an `[M, K]` matrix by a `[K, N]` matrix that contracts the first operand's second axis with the second
  operand's first axis and has no batch axis, accumulated into the zero matrix, the entry at `(i, o)` is, on the extended
  reals, the sum over `k` of the first operand at `(i, k)` times the second at `(k, o)`.  The lemma takes the four
  coordinate facts of the dimension record (which operand coordinate reads the result index, which the contraction index) as
  hypotheses, so that it serves any record with this layout, whatever its extents.
-/
import Idealize.ShloMosaic.PureOps.Ideal.Laws
import Idealize.ShloMosaic.Lib.ValueIdx

noncomputable section

open scoped BigOperators

namespace Cert.Lib.PlainMatmul

open Idealize.ShloMosaic Idealize.ShloMosaic.ValueIdx

/-- The entry `(i, o)` of `lhs · rhs` accumulated into zero is `∑ k, lhs (i, k) * rhs (k, o)`. -/
theorem matmul_zero_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (lhs : FVec Ideal ⟨2, ![M, K]⟩ φ₁) (rhs : FVec Ideal ⟨2, ![K, N]⟩ φ₂)
    (i : Fin M) (o : Fin N) :
    matmul d prec lhs rhs (constant ⟨2, ![M, N]⟩ .f32 0x00000000#32) (ix2 i o)
      = ∑ k : Fin K, lhs (ix2 i k) * rhs (ix2 k o) := by
  refine (Ideal.matmul_constant_zero_apply d prec lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

end Cert.Lib.PlainMatmul

end
-- ==== Proof.LibUnitLoad.lean ====
/-
  A load through a unit-stride rectangle, read at an index.

  A rectangle of unit stride picks, on every axis, `size` consecutive coordinates starting at `off`.  What a load through
  it reads at a local index `z` is the buffer's contents at the index whose every coordinate is `off + z`.
-/
import Idealize.ShloMosaic.Lib.Pipeline.Value

noncomputable section

namespace Cert.Lib.UnitLoad

open Idealize.ShloMosaic

/-- `View.ld X (Rect.unit off size _) z = X i` when `i` is `z` shifted by `off` on every axis. -/
theorem ld_unit_apply {Val : EltTy → Type} {S : Shape} {e : EltTy} (X : S.Idx → Val e) (off size : Fin S.rank → Nat)
    (inb : ∀ a, off a + size a ≤ S.size a) (z : (Rect.unit off size inb).shape.Idx) (i : S.Idx)
    (h : ∀ a, (i a).val = off a + (z a).val) : View.ld X (Rect.unit off size inb) z = X i := by
  show X ((Rect.unit off size inb).idx z) = X i
  congr 1
  funext a
  apply Fin.ext
  rw [h a]
  show off a + 1 * (z a).val = _
  rw [Nat.one_mul]

end Cert.Lib.UnitLoad

end
-- ==== Proof.KernelBlock.lean ====
/-
  What one grid point's body leaves in its output block.

  A block holds one image: x and centers as [1,11,384,384], the labels as [1,384,384]. For each class the body takes the
  class's two [384,384] slabs, forms the logit matrix x² + centers² − 2 · (x · centers) (a matrix product), and updates a
  running pair (maximum, rescaled sum) pixel by pixel; after the eleventh class it takes the reciprocal of the sum,
  weights it by the label, clamps it, sums over the pixels and stores that one number at every index of the [1,8,128]
  output block. Read at an index, the eleven unrolled updates ARE the fold of the one-step function over the classes.
-/
import proofs.«120872_j1099511628281_2_alg».proof.Proof.Gen.KernelIdeal.Frame
import proofs.«120872_j1099511628281_2_alg».proof.Proof.Spec
import proofs.«120872_j1099511628281_2_alg».proof.Proof.Consts
import proofs.«120872_j1099511628281_2_alg».proof.Proof.LibPlainMatmul
import proofs.«120872_j1099511628281_2_alg».proof.Proof.LibUnitLoad
import Idealize.ShloMosaic.Lib.Pipeline.Value
import Idealize.ShloMosaic.Lib.ValueIdx
import Idealize.ShloMosaic.PureOps.Ideal.Laws

noncomputable section

namespace Cert.CenterLoss.Block

open Cert.KernelIdeal Cert.KernelIdeal.Gen Idealize.ShloMosaic Idealize.ShloMosaic.ValueIdx

/-- The logit of class `c` at pixel (h, w) of ONE image's block of the two arrays. -/
def blkLogit (x0 x1 : Vec Ideal S1x11x384x384 .f32) (c : Fin 11) (h w : Fin 384) : EReal :=
  x0 (ix4 (0 : Fin 1) c h w) * x0 (ix4 (0 : Fin 1) c h w) + x1 (ix4 (0 : Fin 1) c h w) * x1 (ix4 (0 : Fin 1) c h w)
    - Ideal.ofBits .f32 0x40000000#32 * ∑ k : Fin 384, x0 (ix4 (0 : Fin 1) c h k) * x1 (ix4 (0 : Fin 1) c k w)

/-- A [1,1,384,384] slab viewed as a [384,384] matrix reads (0,0,h,w) at (h,w). -/
theorem slab_apply (v : FVec Ideal S1x1x384x384 .f32) (hc : S1x1x384x384.ShapeCasts S384x384) (h w : Fin 384) :
    shapeCast S384x384 v hc (ix2 h w) = v (ix4 (0 : Fin 1) (0 : Fin 1) h w) := by
  refine shapeCast_apply v hc (ix2 h w) (ix4 (0 : Fin 1) (0 : Fin 1) h w) ?_
  rw [Shape.rowMajor_val_four, Shape.rowMajor_val_two]
  show ((0 * 1 + 0) * 384 + h.val) * 384 + w.val = h.val * 384 + w.val
  omega

/-- The matrix product of two [384,384] matrices into zero, at (h,w): the sum over k of (h,k) times (k,w). -/
theorem dot_apply (a b : FVec Ideal S384x384 .f32) (h w : Fin 384) :
    matmul dot_S384x384_S384x384_S384x384_1_0_0_1_n_n (some .fp32) a b (constant (F := Ideal) S384x384 .f32 0x00000000#32) (ix2 h w)
      = ∑ k : Fin 384, a (ix2 h k) * b (ix2 k w) :=
  Cert.Lib.PlainMatmul.matmul_zero_apply (M := 384) (K := 384) (N := 384) dot_S384x384_S384x384_S384x384_1_0_0_1_n_n rfl rfl
    (fun j q => by
      unfold DotDims.lhsIdx
      rw [dif_neg (show ¬(⟨0, Nat.zero_lt_two⟩ : Fin 2) ∈ dot_S384x384_S384x384_S384x384_1_0_0_1_n_n.lhsBatch by decide),
        dif_pos (show (⟨0, Nat.zero_lt_two⟩ : Fin 2) ∈ dot_S384x384_S384x384_S384x384_1_0_0_1_n_n.lhsNonContracting by decide)]
      rfl)
    (fun j q => dot_S384x384_S384x384_S384x384_1_0_0_1_n_n.lhsIdx_val_of_single rfl j q)
    (fun j q => dot_S384x384_S384x384_S384x384_1_0_0_1_n_n.rhsIdx_val_of_single rfl j q)
    (fun j q => by
      unfold DotDims.rhsIdx
      rw [dif_neg (show ¬(⟨1, Nat.one_lt_two⟩ : Fin 2) ∈ dot_S384x384_S384x384_S384x384_1_0_0_1_n_n.rhsBatch by decide),
        dif_pos (show (⟨1, Nat.one_lt_two⟩ : Fin 2) ∈ dot_S384x384_S384x384_S384x384_1_0_0_1_n_n.rhsNonContracting by decide)]
      rfl)
    (some .fp32) a b h w

/-- One class's logit matrix, from the two loaded slabs, at pixel (h,w). -/
theorem pay3_apply (v2 v4 : Vec Ideal S1x1x384x384 .f32) (h w : Fin 384) :
    k0_pay3 (F := Ideal) v2 v4 (ix2 h w)
      = v2 (ix4 (0 : Fin 1) (0 : Fin 1) h w) * v2 (ix4 (0 : Fin 1) (0 : Fin 1) h w)
        + v4 (ix4 (0 : Fin 1) (0 : Fin 1) h w) * v4 (ix4 (0 : Fin 1) (0 : Fin 1) h w)
        - Ideal.ofBits .f32 0x40000000#32 * ∑ k : Fin 384, v2 (ix4 (0 : Fin 1) (0 : Fin 1) h k) * v4 (ix4 (0 : Fin 1) (0 : Fin 1) k w) := by
  unfold k0_pay3
  simp only [subf_apply, addf_apply, mulf_apply, broadcast_apply, dot_apply, slab_apply]
  rfl

/-- A [1,384,384] block viewed as a [384,384] matrix reads (0,h,w) at (h,w). -/
theorem blockI_apply (v : IVec S1x384x384 32) (hc : S1x384x384.ShapeCasts S384x384) (h w : Fin 384) :
    shapeCast S384x384 v hc (ix2 h w) = v (ix3 (0 : Fin 1) h w) := by
  refine shapeCast_apply v hc (ix2 h w) (ix3 (0 : Fin 1) h w) ?_
  rw [Shape.rowMajor_val_three, Shape.rowMajor_val_two]
  show (0 * 384 + h.val) * 384 + w.val = h.val * 384 + w.val
  omega

/-- A [384,384] matrix viewed as a [1,384,384] block reads (h,w) at (0,h,w). -/
theorem unblock_apply (v : FVec Ideal S384x384 .f32) (hc : S384x384.ShapeCasts S1x384x384) (h w : Fin 384) :
    shapeCast S1x384x384 v hc (ix3 (0 : Fin 1) h w) = v (ix2 h w) := by
  refine shapeCast_apply v hc (ix3 (0 : Fin 1) h w) (ix2 h w) ?_
  rw [Shape.rowMajor_val_three, Shape.rowMajor_val_two]
  show h.val * 384 + w.val = (0 * 384 + h.val) * 384 + w.val
  omega

/-- The sum of a [1,384,384] block over its two long axes, at the one index of the result, is the sum over every
    index of the block. -/
theorem total_apply (src : FVec Ideal S1x384x384 .f32) (hr : S1x384x384.Reduces [1, 2] S1) (hφ : FKind.Formats .f32)
    (hacc : (0x00000000#32 : BitVec 32) = FKind.add.neutral .f32 hφ) (j : S1.Idx) :
    multiReduction (F := Ideal) .add [1, 2] S1 src 0x00000000#32 hr hφ hacc j = ∑ i : S1x384x384.Idx, src i :=
  Ideal.multiReduction_add_total src _ hr (fun b => by fin_cases b; rfl) hφ hacc j

/-- The total extracted as a scalar and splat over the [1,8,128] output block reads the total everywhere. -/
theorem splat_total (src : FVec Ideal S1x384x384 .f32) (hr : S1x384x384.Reduces [1, 2] S1) (hφ : FKind.Formats .f32)
    (hacc : (0x00000000#32 : BitVec 32) = FKind.add.neutral .f32 hφ) (hc1 : S1.ShapeCasts S1x1x1)
    (hpos : ∀ a, (![0, 0, 0] : Fin 3 → Nat) a < S1x1x1.size a) (hc2 : S8x128.ShapeCasts S1x8x128) (y : S1x8x128.Idx) :
    shapeCast S1x8x128 (broadcast S8x128 (extractAt ![0, 0, 0]
        (shapeCast S1x1x1 (multiReduction (F := Ideal) .add [1, 2] S1 src 0x00000000#32 hr hφ hacc) hc1) hpos)) hc2 y
      = ∑ i : S1x384x384.Idx, src i :=
  total_apply src hr hφ hacc _

/-- The value the body stores, at any index of the output block: the sum over the pixels of the clamped, label-weighted
    reciprocal of the running sum after its last step — the running pair before that step is (v175, v181), the last
    class's square of x is v187, its centers slab v185 and its product v186. -/
theorem pay1_apply (v175 v181 v185 v186 v187 : FVec Ideal S384x384 .f32) (v202 : IVec S1x384x384 32) (y : S1x8x128.Idx) :
    k0_pay1 (F := Ideal) v175 v181 v185 v186 v187 v202 y
      = ∑ h : Fin 384, ∑ w : Fin 384,
          clampW (Ideal.div (Ideal.ofBits .f32 0x3F800000#32)
            (osStep (v175 (ix2 h w), v181 (ix2 h w))
              (v187 (ix2 h w) + v185 (ix2 h w) * v185 (ix2 h w) - Ideal.ofBits .f32 0x40000000#32 * v186 (ix2 h w))).2)
            (v202 (ix3 (0 : Fin 1) h w)) := by
  unfold k0_pay1
  dsimp only
  refine (splat_total _ _ _ _ _ _ _ _).trans ?_
  rw [sum_idx3, Fin.sum_univ_one]
  refine Finset.sum_congr rfl fun h _ => Finset.sum_congr rfl fun w _ => ?_
  rw [unblock_apply]
  simp only [minimumf_apply, maximumf_apply, mulf_apply, divf_apply, broadcast_apply, addf_apply, subf_apply, sitofp_apply, blockI_apply]
  rfl

theorem hz3 : (![0, 0, 0] : Fin 3 → Nat) = fun _ => 0 := funext fun a => by fin_cases a <;> rfl

/-- The slab of class k of a [1,11,384,384] block, read at (0,0,h,w), is the block at (0,k,h,w). -/
theorem ld_class (x : Vec Ideal S1x11x384x384 .f32) (k : Nat) (hk : k < 11)
    (inb : ∀ a, (![0, k, 0, 0] : Fin 4 → Nat) a + S1x1x384x384.size a ≤ S1x11x384x384.size a) (h w : Fin 384) :
    View.ld (Val := Elt Ideal) (e' := .f32) x (Rect.unit (s := S1x11x384x384) ![0, k, 0, 0] S1x1x384x384.size inb) (ix4 (0 : Fin 1) (0 : Fin 1) h w)
      = x (ix4 (0 : Fin 1) (⟨k, hk⟩ : Fin 11) h w) :=
  Cert.Lib.UnitLoad.ld_unit_apply (Val := Elt Ideal) (e := .f32) x _ _ inb (ix4 (0 : Fin 1) (0 : Fin 1) h w) (ix4 (0 : Fin 1) (⟨k, hk⟩ : Fin 11) h w) (fun a => by
    match a with
    | ⟨0, _⟩ => rfl
    | ⟨1, _⟩ => show k = k + 0; omega
    | ⟨2, _⟩ => show h.val = 0 + h.val; omega
    | ⟨3, _⟩ => show w.val = 0 + w.val; omega)

/-- The logit matrix computed from the two slabs of class k, at (h,w), is that class's logit of the block. -/
theorem logit_of_loads (x0 x1 : Vec Ideal S1x11x384x384 .f32) (k : Nat) (hk : k < 11)
    (inb : ∀ a, (![0, k, 0, 0] : Fin 4 → Nat) a + S1x1x384x384.size a ≤ S1x11x384x384.size a) (h w : Fin 384) :
    k0_pay3 (F := Ideal) (View.ld (Val := Elt Ideal) (e' := .f32) x0 (Rect.unit (s := S1x11x384x384) ![0, k, 0, 0] S1x1x384x384.size inb))
        (View.ld (Val := Elt Ideal) (e' := .f32) x1 (Rect.unit (s := S1x11x384x384) ![0, k, 0, 0] S1x1x384x384.size inb)) (ix2 h w)
      = blkLogit x0 x1 ⟨k, hk⟩ h w := by
  rw [pay3_apply]
  unfold blkLogit
  rw [ld_class x0 k hk inb h w, ld_class x1 k hk inb h w]
  refine congrArg (fun s : EReal => x0 (ix4 (0 : Fin 1) (⟨k, hk⟩ : Fin 11) h w) * x0 (ix4 (0 : Fin 1) (⟨k, hk⟩ : Fin 11) h w)
      + x1 (ix4 (0 : Fin 1) (⟨k, hk⟩ : Fin 11) h w) * x1 (ix4 (0 : Fin 1) (⟨k, hk⟩ : Fin 11) h w)
      - Ideal.ofBits .f32 0x40000000#32 * s) (Finset.sum_congr rfl fun q _ => ?_)
  rw [ld_class x0 k hk inb h q, ld_class x1 k hk inb q w]

/-- WHAT THE BODY LEAVES in the output block, at any of its indices: the sum over the pixels of the clamped,
    label-weighted reciprocal of the eleven-step running sum of the block's logits. The eleven unrolled steps are the
    fold of `osStep` over the classes by unfolding; each class's logit matrix is the block's logit. -/
theorem out_apply (x0 x1 : Vec Ideal S1x11x384x384 .f32) (x2 : Vec Ideal S1x384x384 .i32) (y : S1x8x128.Idx) :
    out0_3 (F := Ideal) x0 x1 x2 y
      = ∑ h : Fin 384, ∑ w : Fin 384,
          clampW (Ideal.div (Ideal.ofBits .f32 0x3F800000#32)
            (List.foldl osStep (Ideal.ofBits .f32 0xFF800000#32, Ideal.ofBits .f32 0x00000000#32)
              (List.ofFn fun c : Fin 11 => blkLogit x0 x1 c h w)).2) (x2 (ix3 (0 : Fin 1) h w)) := by
  unfold out0_3
  rw [View.canon_unit_zero hz3]
  refine (pay1_apply _ _ _ _ _ _ y).trans ?_
  refine Finset.sum_congr rfl fun h _ => Finset.sum_congr rfl fun w _ => ?_
  rw [View.ld_unit_zero (S := S1x384x384) hz3]
  refine congrArg (fun s => clampW (Ideal.div (Ideal.ofBits .f32 0x3F800000#32) s) (x2 (ix3 (0 : Fin 1) h w))) ?_
  have e0 : k0_pay3 (F := Ideal) (View.ld x0 r0_0) (View.ld x1 r0_0) (ix2 h w) = blkLogit x0 x1 ⟨0, by omega⟩ h w :=
    logit_of_loads x0 x1 0 (by omega) _ h w
  have e1 : k0_pay3 (F := Ideal) (View.ld x0 r0_1) (View.ld x1 r0_1) (ix2 h w) = blkLogit x0 x1 ⟨1, by omega⟩ h w :=
    logit_of_loads x0 x1 1 (by omega) _ h w
  have e2 : k0_pay3 (F := Ideal) (View.ld x0 r0_2) (View.ld x1 r0_2) (ix2 h w) = blkLogit x0 x1 ⟨2, by omega⟩ h w :=
    logit_of_loads x0 x1 2 (by omega) _ h w
  have e3 : k0_pay3 (F := Ideal) (View.ld x0 r0_3) (View.ld x1 r0_3) (ix2 h w) = blkLogit x0 x1 ⟨3, by omega⟩ h w :=
    logit_of_loads x0 x1 3 (by omega) _ h w
  have e4 : k0_pay3 (F := Ideal) (View.ld x0 r0_4) (View.ld x1 r0_4) (ix2 h w) = blkLogit x0 x1 ⟨4, by omega⟩ h w :=
    logit_of_loads x0 x1 4 (by omega) _ h w
  have e5 : k0_pay3 (F := Ideal) (View.ld x0 r0_5) (View.ld x1 r0_5) (ix2 h w) = blkLogit x0 x1 ⟨5, by omega⟩ h w :=
    logit_of_loads x0 x1 5 (by omega) _ h w
  have e6 : k0_pay3 (F := Ideal) (View.ld x0 r0_6) (View.ld x1 r0_6) (ix2 h w) = blkLogit x0 x1 ⟨6, by omega⟩ h w :=
    logit_of_loads x0 x1 6 (by omega) _ h w
  have e7 : k0_pay3 (F := Ideal) (View.ld x0 r0_7) (View.ld x1 r0_7) (ix2 h w) = blkLogit x0 x1 ⟨7, by omega⟩ h w :=
    logit_of_loads x0 x1 7 (by omega) _ h w
  have e8 : k0_pay3 (F := Ideal) (View.ld x0 r0_8) (View.ld x1 r0_8) (ix2 h w) = blkLogit x0 x1 ⟨8, by omega⟩ h w :=
    logit_of_loads x0 x1 8 (by omega) _ h w
  have e9 : k0_pay3 (F := Ideal) (View.ld x0 r0_9) (View.ld x1 r0_9) (ix2 h w) = blkLogit x0 x1 ⟨9, by omega⟩ h w :=
    logit_of_loads x0 x1 9 (by omega) _ h w
  have e10 : k0_pay3 (F := Ideal) (View.ld x0 r0_10) (View.ld x1 r0_10) (ix2 h w) = blkLogit x0 x1 ⟨10, by omega⟩ h w :=
    logit_of_loads x0 x1 10 (by omega) _ h w
  rw [show (List.ofFn fun c : Fin 11 => blkLogit x0 x1 c h w)
      = [blkLogit x0 x1 ⟨0, by omega⟩ h w, blkLogit x0 x1 ⟨1, by omega⟩ h w, blkLogit x0 x1 ⟨2, by omega⟩ h w, blkLogit x0 x1 ⟨3, by omega⟩ h w, blkLogit x0 x1 ⟨4, by omega⟩ h w, blkLogit x0 x1 ⟨5, by omega⟩ h w, blkLogit x0 x1 ⟨6, by omega⟩ h w, blkLogit x0 x1 ⟨7, by omega⟩ h w, blkLogit x0 x1 ⟨8, by omega⟩ h w, blkLogit x0 x1 ⟨9, by omega⟩ h w, blkLogit x0 x1 ⟨10, by omega⟩ h w] from rfl]
  rw [← e0, ← e1, ← e2, ← e3, ← e4, ← e5, ← e6, ← e7, ← e8, ← e9, ← e10]
  rfl

end Cert.CenterLoss.Block
end
-- ==== Proof.KernelValue.lean ====
/-
  The kernel program's result, read off its frame run.

  The grid has 32 points, one per image: point t stages image t of x, centers and labels and writes back block t of the
  [32,8,128] result array. What the body leaves in that block is image t's total at every index, so the result array
  ends holding image n's total at every (n, ·, ·); the host lines after the region slice out (n, 0, 0), add the 32
  totals from zero and divide by the pixel count.
-/
import proofs.«120872_j1099511628281_2_alg».proof.Proof.KernelBlock
import Idealize.ShloMosaic.Lib.Pipeline.Value
import Idealize.ShloMosaic.Lib.Pipeline.FrameSuffix
import Idealize.ShloMosaic.Lib.StableHlo.Run
import Idealize.ShloMosaic.Lib.Tactic

noncomputable section

namespace Cert.CenterLoss.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps, decided over the 32 grid points: every window's block index is the point's number on the
    image axis and zero on the others. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The x window's block at point t is image t of the x array. -/
theorem iblk0_apply (c : Dev nD) (t : Fin cfg0.N) (n : Fin 32) (hn : n.val = t.val) (cc : Fin 11) (h w : Fin 384) :
    (iblk m c 0 t : Vec Ideal S1x11x384x384 .f32) (ix4 (0 : Fin 1) cc h w)
      = (m ((c : Thread nD τ).loc main_arg0) : S32x11x384x384.Idx → EReal) (ix4 n cc h w) := by
  obtain ⟨e0, e1, e2, e3, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 4) * 1 + 1 * 0 = n.val; omega
  | ⟨1, _⟩ => show win0_0.index t (1 : Fin 4) * 11 + 1 * cc.val = cc.val; omega
  | ⟨2, _⟩ => show win0_0.index t (2 : Fin 4) * 384 + 1 * h.val = h.val; omega
  | ⟨3, _⟩ => show win0_0.index t (3 : Fin 4) * 384 + 1 * w.val = w.val; omega

/-- The centers window's block at point t is image t of the centers array. -/
theorem iblk1_apply (c : Dev nD) (t : Fin cfg0.N) (n : Fin 32) (hn : n.val = t.val) (cc : Fin 11) (h w : Fin 384) :
    (iblk m c 1 t : Vec Ideal S1x11x384x384 .f32) (ix4 (0 : Fin 1) cc h w)
      = (m ((c : Thread nD τ).loc main_arg1) : S32x11x384x384.Idx → EReal) (ix4 n cc h w) := by
  obtain ⟨-, -, -, -, e0, e1, e2, e3, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 4) * 1 + 1 * 0 = n.val; omega
  | ⟨1, _⟩ => show win0_1.index t (1 : Fin 4) * 11 + 1 * cc.val = cc.val; omega
  | ⟨2, _⟩ => show win0_1.index t (2 : Fin 4) * 384 + 1 * h.val = h.val; omega
  | ⟨3, _⟩ => show win0_1.index t (3 : Fin 4) * 384 + 1 * w.val = w.val; omega

/-- The labels window's block at point t is image t of the labels array. -/
theorem iblk2_apply (c : Dev nD) (t : Fin cfg0.N) (n : Fin 32) (hn : n.val = t.val) (h w : Fin 384) :
    (iblk m c 2 t : Vec Ideal S1x384x384 .i32) (ix3 (0 : Fin 1) h w)
      = (m ((c : Thread nD τ).loc main_arg2) : S32x384x384.Idx → BitVec 32) (ix3 n h w) := by
  obtain ⟨-, -, -, -, -, -, -, -, e0, e1, e2, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t (0 : Fin 3) * 1 + 1 * 0 = n.val; omega
  | ⟨1, _⟩ => show win0_2.index t (1 : Fin 3) * 384 + 1 * h.val = h.val; omega
  | ⟨2, _⟩ => show win0_2.index t (2 : Fin 3) * 384 + 1 * w.val = w.val; omega

/-- The result array the region leaves: image n's total at every index (n, ·, ·). -/
def totals (c : Dev nD) : S32x8x128.Idx → EReal := fun i =>
  imageTotal (m ((c : Thread nD τ).loc main_arg0) : S32x11x384x384.Idx → EReal)
    (m ((c : Thread nD τ).loc main_arg1) : S32x11x384x384.Idx → EReal)
    (m ((c : Thread nD τ).loc main_arg2) : S32x384x384.Idx → BitVec 32) ⟨(i 0).val, (i 0).isLt⟩

theorem totals_apply (c : Dev nD) (i : S32x8x128.Idx) (n : Fin 32) (hn : n.val = (i 0).val) :
    totals m c i = imageTotal (m ((c : Thread nD τ).loc main_arg0) : S32x11x384x384.Idx → EReal)
      (m ((c : Thread nD τ).loc main_arg1) : S32x11x384x384.Idx → EReal)
      (m ((c : Thread nD τ).loc main_arg2) : S32x384x384.Idx → BitVec 32) n := by
  unfold totals
  congr 1
  exact Fin.ext hn.symm

/-- A block's logit at point t is image t's logit of the arrays. -/
theorem blkLogit_eq (c : Dev nD) (t : Fin cfg0.N) (n : Fin 32) (hn : n.val = t.val) (cc : Fin 11) (h w : Fin 384) :
    Block.blkLogit (iblk m c 0 t) (iblk m c 1 t) cc h w
      = logit (m ((c : Thread nD τ).loc main_arg0) : S32x11x384x384.Idx → EReal)
          (m ((c : Thread nD τ).loc main_arg1) : S32x11x384x384.Idx → EReal) n cc h w := by
  unfold Block.blkLogit logit
  rw [iblk0_apply m c t n hn cc h w, iblk1_apply m c t n hn cc h w]
  refine congrArg (fun s : EReal => _ - Ideal.ofBits .f32 0x40000000#32 * s) (Finset.sum_congr rfl fun k _ => ?_)
  rw [iblk0_apply m c t n hn cc h k, iblk1_apply m c t n hn cc k w]

/-- WHAT POINT t WRITES BACK is block t of `totals`. -/
theorem flushed_eq (c : Dev nD) (t : Fin cfg0.N) :
    (dats m 0 c).flushed 3 t = ((cfg0.win 3).blk t).view.read (Elt Ideal) (totals m c) := by
  show (cfg0.win 3).cut (grid0.coords t) ((dats m 0 c).after 3 t) = _
  rw [after0_3]
  funext y
  have hN : t.val < 32 := Nat.lt_of_lt_of_eq t.isLt N_0
  obtain ⟨-, -, -, -, -, -, -, -, -, -, -, e0, e1, e2⟩ := idx_facts t
  show out0_3 (iblk m c 0 t) (iblk m c 1 t) (iblk m c 2 t) y = totals m c (((cfg0.win 3).blk t).view.emb y)
  refine (Block.out_apply (iblk m c 0 t) (iblk m c 1 t) (iblk m c 2 t) y).trans ?_
  have hy : (y 0).val < 1 := (y 0).isLt
  rw [totals_apply m c _ ⟨t.val, hN⟩ (by
    show t.val = win0_3.index t (0 : Fin 3) * 1 + 1 * (y 0).val
    omega)]
  unfold imageTotal recipSum
  refine Finset.sum_congr rfl fun h _ => Finset.sum_congr rfl fun w _ => ?_
  rw [iblk2_apply m c t ⟨t.val, hN⟩ rfl h w]
  rw [show (fun cc : Fin 11 => Block.blkLogit (iblk m c 0 t) (iblk m c 1 t) cc h w)
      = fun cc : Fin 11 => logit (m ((c : Thread nD τ).loc main_arg0) : S32x11x384x384.Idx → EReal)
          (m ((c : Thread nD τ).loc main_arg1) : S32x11x384x384.Idx → EReal) ⟨t.val, hN⟩ cc h w
    from funext fun cc => blkLogit_eq m c t ⟨t.val, hN⟩ rfl cc h w]

/-- An index of the result array is in point t's block iff each coordinate is in the block's range on its axis. -/
theorem mem_blk (t : Fin cfg0.N) (i : S32x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v0).slice (win0_3.rect t)).set ↔ _
  rw [View.set_slice_whole, Rect.mem_set_unit]
  exact Iff.rfl

/-- Every index (n, ·, ·) of the result array is in point n's block. -/
theorem cover (i : S32x8x128.Idx) :
    ∃ t : Fin cfg0.N, (cfg0.win 3).flush t = true ∧ i ∈ ((cfg0.win 3).blk t).view.set := by
  have h0 : (i 0).val < 32 := (i 0).isLt
  have h1 : (i 1).val < 8 := (i 1).isLt
  have h2 : (i 2).val < 128 := (i 2).isLt
  refine ⟨⟨(i 0).val, Nat.lt_of_lt_of_eq h0 N_0.symm⟩, flush0_3 _, ?_⟩
  rw [mem_blk]
  obtain ⟨-, -, -, -, -, -, -, -, -, -, -, e0, e1, e2⟩ := idx_facts ⟨(i 0).val, Nat.lt_of_lt_of_eq h0 N_0.symm⟩
  intro a
  match a with
  | ⟨0, _⟩ =>
    show win0_3.index ⟨(i 0).val, _⟩ (0 : Fin 3) * 1 ≤ (i 0).val ∧ (i 0).val < win0_3.index ⟨(i 0).val, _⟩ (0 : Fin 3) * 1 + 1
    rw [e0]; show (i 0).val * 1 ≤ (i 0).val ∧ (i 0).val < (i 0).val * 1 + 1; omega
  | ⟨1, _⟩ =>
    show win0_3.index ⟨(i 0).val, _⟩ (1 : Fin 3) * 8 ≤ (i 1).val ∧ (i 1).val < win0_3.index ⟨(i 0).val, _⟩ (1 : Fin 3) * 8 + 8
    rw [e1]; omega
  | ⟨2, _⟩ =>
    show win0_3.index ⟨(i 0).val, _⟩ (2 : Fin 3) * 128 ≤ (i 2).val ∧ (i 2).val < win0_3.index ⟨(i 0).val, _⟩ (2 : Fin 3) * 128 + 128
    rw [e2]; omega

/-- THE RESULT ARRAY after the region: image n's total at every (n, ·, ·). -/
theorem final (c : Dev nD) : (dats m 0 c).arrAt 3 cfg0.N = totals m c :=
  (dats m 0 c).arrAt_eq_of_cover 3 (totals m c) (fun t _ => flushed_eq m c t) cover

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE SCALAR the lines after the region leave: each image's total read at (n, 0, 0), summed from zero over the images
    and divided by the pixel count — the loss of the three argument arrays. -/
theorem tail_value (c : Dev nD) :
    Pipeline.afterTail₀ cfgs (dats m) 0 (V0 m) [hostOps1] c main_v4
      = fun _ => loss (m ((c : Thread nD τ).loc main_arg0) : S32x11x384x384.Idx → EReal)
          (m ((c : Thread nD τ).loc main_arg1) : S32x11x384x384.Idx → EReal)
          (m ((c : Thread nD τ).loc main_arg2) : S32x384x384.Idx → BitVec 32) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v0)
      = totals m c :=
    (Pipeline.withArrays_arr (cfgs 0).spec launch0.win.arr_inj c (V0 m c) (fun w => (dats m 0 c).arrAt w (cfgs 0).N) 3).trans (final m c)
  rw [hw]
  funext j
  unfold loss
  show Ideal.div (Host.reduceAdd (F := Ideal) _ _ _ _ j) (Ideal.ofBits .f32 0x4A900000#32) = _
  refine congrArg (fun s => Ideal.div s (Ideal.ofBits .f32 0x4A900000#32)) ?_
  simp only [Host.reduceAdd, Ideal.hostReduceAdd_def]
  refine (Ideal.hostReduceAdd_total _ (fun b => b.elim0) _ _ j).trans ?_
  refine congrArg (fun s => Ideal.ofBits .f32 0x00000000#32 + s) ?_
  refine (sum_idx1 _).trans (Finset.sum_congr rfl fun n _ => ?_)
  show shapeCast S32 (extractStridedSlice S32x1x1 ![0, 0, 0] (totals m c) _) _ (ix1 n) = _
  refine (shapeCast_apply _ _ (ix1 n) (ix3 n (0 : Fin 1) (0 : Fin 1)) ?_).trans ?_
  · rw [Shape.rowMajor_val_three, Shape.rowMajor_val_one]
    show (n.val * 1 + 0) * 1 + 0 = n.val
    omega
  refine (extractStridedSlice_apply _ _ _ (ix3 n (0 : Fin 1) (0 : Fin 1)) (ix3 n (0 : Fin 8) (0 : Fin 128)) (fun a => ?_)).trans ?_
  · match a with
    | ⟨0, _⟩ => show n.val = 0 + n.val; omega
    | ⟨1, _⟩ => rfl
    | ⟨2, _⟩ => rfl
  exact totals_apply m c _ n rfl

/-- THE KERNEL PROGRAM'S RUN, read: the result scalar ends at the loss of the three argument arrays, the arguments
    unchanged. -/
theorem run : θ_run defs (onTc (τ := τ) (main (F := Ideal))) ⟨m, fun _ => 0, ρ⟩ fun r => ∀ c : Dev nD,
      r.2.mem ((c.tc : Thread nD τ).loc main_v4)
        = (fun _ => loss (m ((c : Thread nD τ).loc main_arg0) : S32x11x384x384.Idx → EReal)
            (m ((c : Thread nD τ).loc main_arg1) : S32x11x384x384.Idx → EReal)
            (m ((c : Thread nD τ).loc main_arg2) : S32x384x384.Idx → BitVec 32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 rfl (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.CenterLoss.Kernel

end
-- ==== Proof.RefValue.lean ====
/-
  The reference program's result is the loss.

  The reference computes, per image n, class c and pixel (h, w), the logit
      x² + centers² − 2 · Σ_k x[n,c,h,k] · centers[n,c,k,w],
  then the two-pass softmax over the eleven classes of a pixel (the largest logit M taken from −∞, the shifted
  exponentials exp(a_c − M), their sum from zero, the quotients), then the largest of the eleven probabilities,
  the label weight, the clamp, the sum over all pixels of all images and the division by the pixel count.

  Read index by index: the logits array at (n, c, h, w) is the specification's logit; a reduction over the class
  axis at pixel (n, h, w) ranges over the indices (n, c, h, w), c < 11; the broadcasts back over the classes read
  the pixel's own value. With real inputs every logit is a real, so the largest two-pass probability of a pixel is
  the reciprocal of the one-pass denominator (the law of the running maximum and rescaled running sum), which is
  the specification's per-pixel value. The sum over the rank-3 index set is the triple sum over its coordinates.
-/
import proofs.«120872_j1099511628281_2_alg».proof.Proof.Gen.ReferenceIdeal.Read
import proofs.«120872_j1099511628281_2_alg».proof.Proof.Spec
import proofs.«120872_j1099511628281_2_alg».proof.Proof.Consts
import Idealize.ShloMosaic.Lib.ValueIdx
import Idealize.ShloMosaic.PureOps.Ideal.Laws
import Idealize.ShloMosaic.PureOps.Reduce
import Idealize.ShloMosaic.Lib.Pipeline.Value

noncomputable section

namespace Cert.CenterLoss.Ref

open Cert.ReferenceIdeal Cert.ReferenceIdeal.Gen Cert.ReferenceIdeal.Read Idealize.ShloMosaic Idealize.ShloMosaic.ValueIdx
open Cert.CenterLoss

/-- A finite sum of reals, coerced termwise, is the coerced sum. -/
theorem coe_sum_real {ι : Type*} (s : Finset ι) (f : ι → ℝ) :
    ∑ k ∈ s, ((f k : ℝ) : EReal) = ((∑ k ∈ s, f k : ℝ) : EReal) := by
  classical
  refine Finset.induction_on s (by simp) fun a s ha ih => ?_
  rw [Finset.sum_insert ha, Finset.sum_insert ha, ih, EReal.coe_add]

/-- With real inputs every logit is a real. -/
theorem logit_real (X C : (⟨S32x11x384x384, .f32⟩ : BufTy).Contents (Elt Ideal))
    (hX : ∀ i, ∃ r : ℝ, X i = (r : EReal)) (hC : ∀ i, ∃ r : ℝ, C i = (r : EReal))
    (n : Fin 32) (c : Fin 11) (h w : Fin 384) : ∃ r : ℝ, logit X C n c h w = (r : EReal) := by
  choose x hx using hX
  choose y hy using hC
  refine ⟨x (ix4 n c h w) * x (ix4 n c h w) + y (ix4 n c h w) * y (ix4 n c h w)
    - 2 * ∑ k : Fin 384, x (ix4 n c h k) * y (ix4 n c k w), ?_⟩
  unfold logit
  rw [Consts.ofBits_two]
  simp only [hx, hy]
  rw [EReal.coe_sub, EReal.coe_add, EReal.coe_mul, EReal.coe_mul, EReal.coe_mul, ← coe_sum_real]
  simp only [EReal.coe_mul]

/-- The reference's logits array at (n, c, h, w) is the specification's logit. -/
theorem res_apply (X C : (⟨S32x11x384x384, .f32⟩ : BufTy).Contents (Elt Ideal))
    (n : Fin 32) (c : Fin 11) (h w : Fin 384) :
    val_main_v6 (F := Ideal) X C (ix4 n c h w) = logit X C n c h w := by
  have el : ∀ k : Fin 384, lidx_main_v3 (ix4 n c h w) k = ix4 n c h k := fun k => funext fun a => Fin.ext (by
    match a with | ⟨0, _⟩ => rfl | ⟨1, _⟩ => rfl | ⟨2, _⟩ => rfl | ⟨3, _⟩ => rfl)
  have er : ∀ k : Fin 384, ridx_main_v3 (ix4 n c h w) k = ix4 n c k w := fun k => funext fun a => Fin.ext (by
    match a with | ⟨0, _⟩ => rfl | ⟨1, _⟩ => rfl | ⟨2, _⟩ => rfl | ⟨3, _⟩ => rfl)
  rw [val_main_v6_apply, val_main_v2_apply, val_main_v0_apply, val_main_v1_apply, val_main_v5_apply,
    val_main_v4_apply, val_main_cst_apply, val_main_v3_apply]
  simp only [el, er]
  rfl

/-- Dropping the class axis of a [32, 11, 384, 384] array leaves a [32, 384, 384] one. -/
theorem reduces_d1 : S32x11x384x384.Reduces [1] S32x384x384 := by decide

/-- The pixel index (n, h, w) with class k put back is (n, k, h, w). -/
theorem lift_ix3 (n : Fin 32) (h w : Fin 384) (k : Fin (S32x11x384x384.size 1)) :
    reduces_d1.lift (ix3 n h w) k = ix4 n (⟨k.val, k.isLt⟩ : Fin 11) h w := by
  funext c; apply Fin.ext
  fin_cases c <;> rfl

/-- A maximum-reduction over the class axis, at pixel (n, h, w), is the fold of max over the eleven classes
    from the initial value. -/
theorem hostMax_apply (x : FVec Ideal S32x11x384x384 .f32) (init : FVec Ideal S_ .f32) (n : Fin 32) (h w : Fin 384) :
    Host.reduce (FloatOps.maximumf (F := Ideal) (φ := .f32)) x init reducesTo_S32x11x384x384_S32x384x384_d1 h_S_ (ix3 n h w)
      = Finset.univ.fold max (init (Shape.Idx.first h_S_)) (fun c : Fin 11 => x (ix4 n c h w)) := by
  rw [Host.reduce_eq_fold_single FloatOps.maximumf x init _ reduces_d1 h_S_]
  have hf : (x ∘ reduces_d1.lift (ix3 n h w)) = fun k : Fin 11 => x (ix4 n k h w) :=
    funext fun k => congrArg x (lift_ix3 n h w k)
  exact congrArg (fun f => Finset.fold max (init (Shape.Idx.first h_S_)) f (Finset.univ : Finset (Fin 11))) hf

/-- The two broadcasts of a per-pixel array back over the classes read, at (n, c, h, w), the pixel (n, h, w). -/
theorem idx10_11 (n : Fin 32) (c : Fin 11) (h w : Fin 384) :
    idx_main_v10 (idx_main_v11 (ix4 n c h w)) = ix3 n h w :=
  funext fun a => Fin.ext (by match a with | ⟨0, _⟩ => rfl | ⟨1, _⟩ => rfl | ⟨2, _⟩ => rfl)
theorem idx15_16 (n : Fin 32) (c : Fin 11) (h w : Fin 384) :
    idx_main_v15 (idx_main_v16 (ix4 n c h w)) = ix3 n h w :=
  funext fun a => Fin.ext (by match a with | ⟨0, _⟩ => rfl | ⟨1, _⟩ => rfl | ⟨2, _⟩ => rfl)
theorem idx14 (n : Fin 32) (h w : Fin 384) (k : Fin 11) : idx_main_v14 (ix3 n h w) k = ix4 n k h w :=
  funext fun a => Fin.ext (by match a with | ⟨0, _⟩ => rfl | ⟨1, _⟩ => rfl | ⟨2, _⟩ => rfl | ⟨3, _⟩ => rfl)

/-- The largest logit of a pixel as the two-pass softmax takes it: from −∞, once more against −∞. -/
def rowMax (X C : (⟨S32x11x384x384, .f32⟩ : BufTy).Contents (Elt Ideal)) (n : Fin 32) (h w : Fin 384) : EReal :=
  max ⊥ (Finset.univ.fold max ⊥ fun c : Fin 11 => logit X C n c h w)

/-- The reference's row maximum at pixel (n, h, w). -/
theorem rowMax_apply (X C : (⟨S32x11x384x384, .f32⟩ : BufTy).Contents (Elt Ideal)) (n : Fin 32) (h w : Fin 384) :
    val_main_v9 (F := Ideal) X C (ix3 n h w) = rowMax X C n h w := by
  rw [val_main_v9_apply, val_main_v8_apply, val_main_cst_1_apply]
  unfold val_main_v7
  rw [hostMax_apply, val_main_cst_0_apply]
  simp only [res_apply, Ideal.ofBits_def, Ideal.maximumf_def, Consts.ofBits_neg_inf]
  rfl

/-- The reference's shifted exponential at (n, c, h, w). -/
theorem expv_apply (X C : (⟨S32x11x384x384, .f32⟩ : BufTy).Contents (Elt Ideal))
    (n : Fin 32) (c : Fin 11) (h w : Fin 384) :
    val_main_v13 (F := Ideal) X C (ix4 n c h w) = Ideal.exp (logit X C n c h w - rowMax X C n h w) := by
  rw [val_main_v13_apply, val_main_v12_apply, val_main_v11_apply, val_main_v10_apply, idx10_11, rowMax_apply,
    res_apply]
  rfl

/-- The reference's softmax denominator at pixel (n, h, w): the zero word plus the eleven shifted exponentials. -/
theorem den_apply (X C : (⟨S32x11x384x384, .f32⟩ : BufTy).Contents (Elt Ideal)) (n : Fin 32) (h w : Fin 384) :
    val_main_v14 (F := Ideal) X C (ix3 n h w)
      = 0 + ∑ c : Fin 11, Ideal.exp (logit X C n c h w - rowMax X C n h w) := by
  rw [val_main_v14_apply, val_main_cst_2_apply]
  simp only [idx14, expv_apply, Ideal.ofBits_def, Ideal.ofBits_zero_f32]

/-- The reference's softmax probability at (n, c, h, w). -/
theorem prob_apply (X C : (⟨S32x11x384x384, .f32⟩ : BufTy).Contents (Elt Ideal))
    (n : Fin 32) (c : Fin 11) (h w : Fin 384) :
    val_main_v17 (F := Ideal) X C (ix4 n c h w)
      = Ideal.div (Ideal.exp (logit X C n c h w - rowMax X C n h w))
          (0 + ∑ c' : Fin 11, Ideal.exp (logit X C n c' h w - rowMax X C n h w)) := by
  rw [val_main_v17_apply, val_main_v16_apply, val_main_v15_apply, idx15_16, den_apply, expv_apply]
  rfl

/-- The reference's largest softmax probability at pixel (n, h, w). -/
theorem maxProb_apply (X C : (⟨S32x11x384x384, .f32⟩ : BufTy).Contents (Elt Ideal)) (n : Fin 32) (h w : Fin 384) :
    val_main_v18 (F := Ideal) X C (ix3 n h w)
      = Finset.univ.fold max ⊥ (fun c : Fin 11 =>
          Ideal.div (Ideal.exp (logit X C n c h w - rowMax X C n h w))
            (0 + ∑ c' : Fin 11, Ideal.exp (logit X C n c' h w - rowMax X C n h w))) := by
  unfold val_main_v18
  rw [hostMax_apply, val_main_cst_3_apply]
  simp only [prob_apply, Ideal.ofBits_def, Consts.ofBits_neg_inf]

/-- With real inputs the reference's largest softmax probability at a pixel is the reciprocal of the one-pass
    denominator over its eleven classes. -/
theorem recip_apply (X C : (⟨S32x11x384x384, .f32⟩ : BufTy).Contents (Elt Ideal))
    (hX : ∀ i, ∃ r : ℝ, X i = (r : EReal)) (hC : ∀ i, ∃ r : ℝ, C i = (r : EReal))
    (n : Fin 32) (h w : Fin 384) :
    val_main_v18 (F := Ideal) X C (ix3 n h w) = recipSum X C n h w := by
  have hr : ∀ c : Fin 11, ∃ r : ℝ, logit X C n c h w = (r : EReal) := fun c => logit_real X C hX hC n c h w
  choose r hr using hr
  rw [maxProb_apply]
  unfold recipSum rowMax
  rw [Consts.ofBits_neg_inf, Ideal.ofBits_zero_f32, Consts.ofBits_one]
  simp only [hr]
  exact (online_eq_softmax_max (n := 10) r).symm

/-- The reference's clamped, label-weighted value at pixel (n, h, w). -/
theorem clamp_apply (X C : (⟨S32x11x384x384, .f32⟩ : BufTy).Contents (Elt Ideal))
    (L : (⟨S32x384x384, .i32⟩ : BufTy).Contents (Elt Ideal))
    (hX : ∀ i, ∃ r : ℝ, X i = (r : EReal)) (hC : ∀ i, ∃ r : ℝ, C i = (r : EReal))
    (n : Fin 32) (h w : Fin 384) :
    val_main_v21 (F := Ideal) X C L (ix3 n h w) = clampW (recipSum X C n h w) (L (ix3 n h w)) := by
  rw [val_main_v21_apply, val_main_call0_v4_apply, val_main_call0_v3_apply, val_main_cst_5_apply,
    val_main_call0_v2_apply, val_main_call0_v1_apply, val_main_call0_v0_apply, val_main_cst_4_apply,
    val_main_v20_apply, val_main_v19_apply, recip_apply X C hX hC]
  rfl

/-- With real inputs the reference program's result is the loss. -/
theorem ref_eq_loss (X C : (⟨S32x11x384x384, .f32⟩ : BufTy).Contents (Elt Ideal))
    (L : (⟨S32x384x384, .i32⟩ : BufTy).Contents (Elt Ideal))
    (hX : ∀ i, ∃ r : ℝ, X i = (r : EReal)) (hC : ∀ i, ∃ r : ℝ, C i = (r : EReal)) :
    val_main_v23 (F := Ideal) X C L = fun _ => loss X C L := by
  funext i
  rw [val_main_v23_apply, val_main_v22_apply, val_main_cst_6_apply, val_main_cst_7_apply, sum_idx3]
  simp only [clamp_apply X C L hX hC]
  unfold loss imageTotal
  rfl

end Cert.CenterLoss.Ref

end
-- ==== Proof.Finite.lean ====
/-
  The precondition read back: every entry of the two float arrays is a real number.

  The precondition is the conjunction of two one-bit words, each the "and" over all indices of the
  comparison |v i| < +∞. A conjunction of one-bit words that is 1 has both halves 1; an "and" over
  all indices that is 1 met a 1 at every index; and in the extended reals max v (-v) < ⊤ excludes
  v = ⊤ (the maximum is ⊤) and v = ⊥ (then -v = ⊤), leaving a real.
-/
import proofs.«120872_j1099511628281_2_alg».proof.Pre_finite_inputs
import proofs.«120872_j1099511628281_2_alg».proof.Proof.Gen.Pre_finite_inputs
import proofs.«120872_j1099511628281_2_alg».proof.Proof.Consts
import Idealize.ShloMosaic.Lib.ReduceAll
import Idealize.ShloMosaic.Lib.ValueIdx
import Idealize.ShloMosaic.PureOps.Ideal

noncomputable section

namespace Cert.CenterLoss

open Idealize.ShloMosaic

/-- An extended real whose absolute value max x (-x) lies strictly below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison |x| < +∞ coming out 1 says x is a real number. -/
theorem real_of_cmp (x : EReal)
    (h : Ideal.cmp .olt (max x (-x)) (Ideal.ofBits .f32 0x7F800000#32) = 1#1) : ∃ r : ℝ, x = (r : EReal) := by
  rw [Consts.ofBits_pos_inf] at h
  apply real_of_abs_lt_top
  unfold Ideal.cmp at h
  by_contra hn
  simp [hn] at h

/-- The scalar shape has one index. -/
instance : Subsingleton Cert.Pre_finite_inputs.S_.Idx := ⟨fun a b => funext fun d => d.elim0⟩

/-- THE PRECONDITION DECODED: every entry of both float arrays is a real number. -/
theorem entries_real (X C : FVec Ideal Cert.Pre_finite_inputs.S32x11x384x384 .f32) (L : IVec Cert.Pre_finite_inputs.S32x384x384 32)
    (h : Cert.Pre_finite_inputs.fn (F := Ideal) X C L = fun _ => 1#1) :
    (∀ i, ∃ r : ℝ, X i = (r : EReal)) ∧ (∀ i, ∃ r : ℝ, C i = (r : EReal)) := by
  have h0 := congrFun h ValueIdx.ix0
  dsimp only [Cert.Pre_finite_inputs.fn] at h0
  obtain ⟨hX, hC⟩ := IntOp.andi_eq_one.1 h0
  refine ⟨fun i => ?_, fun i => ?_⟩
  · exact real_of_cmp (X i) (Host.reduce_andi_all _ _ _ _ _ hX i)
  · exact real_of_cmp (C i) (Host.reduce_andi_all _ _ _ _ _ hC i)

end Cert.CenterLoss

end
-- ==== Proof.lean ====
/-
  The five claims of the certificate.

  Both idealized programs compute, from x, centers : [32,11,384,384] and labels : [32,384,384], one scalar. Per pixel
  (n,h,w) and class c the logit is x² + centers² − 2 · Σ_k x[n,c,h,k] · centers[n,c,k,w]. The kernel runs, over the eleven
  classes, a one-pass pair (running maximum, rescaled running sum) and takes the reciprocal of the final sum; the
  reference takes the softmax over the classes and then its maximum. For finite logits these agree: the largest softmax
  probability is exp(M − M) / S = 1 / S with M the largest logit and S = Σ_c exp(a_c − M), which is what the one-pass sum
  ends at. Finiteness of the logits is where the precondition (every entry of x and centers finite) is used. The value is
  then weighted by the label, clamped, and summed: the kernel sums per image inside the region and the host adds the 32
  totals, the reference sums all pixels at once; both divide by the same pixel count.

  The kernel side is read off the generated frame run (what each grid point writes back, the result array, then the host
  lines after the region); the reference side off its generated run, one operation at a time. The word-level kernel needs
  only its generated frame, and the idealization rewrote nothing.
-/
import proofs.«120872_j1099511628281_2_alg».proof.Defs
import proofs.«120872_j1099511628281_2_alg».proof.Proof.Gen.Kernel
import proofs.«120872_j1099511628281_2_alg».proof.Proof.Gen.Kernel.Frame
import proofs.«120872_j1099511628281_2_alg».proof.Proof.Gen.KernelIdeal
import proofs.«120872_j1099511628281_2_alg».proof.Proof.Gen.KernelIdeal.Frame
import proofs.«120872_j1099511628281_2_alg».proof.Proof.Gen.ReferenceIdeal
import proofs.«120872_j1099511628281_2_alg».proof.Proof.Gen.ReferenceIdeal.Run
import proofs.«120872_j1099511628281_2_alg».proof.Proof.Gen.ReferenceIdeal.Read
import proofs.«120872_j1099511628281_2_alg».proof.Proof.Gen.Pre_finite_inputs
import proofs.«120872_j1099511628281_2_alg».proof.Proof.KernelValue
import proofs.«120872_j1099511628281_2_alg».proof.Proof.RefValue
import proofs.«120872_j1099511628281_2_alg».proof.Proof.Finite
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the loss of the argument arrays: the
    kernel by its run read back, the reference because, the entries of x and centers being finite, its two-pass softmax
    maximum is the reciprocal of the one-pass sum. -/
theorem algebraic : Cert.algebraic_KernelIdeal_ReferenceIdeal := by
  intro m ρ m' ρ' hpre hagree
  refine ⟨fun c => fun _ => Cert.CenterLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.CenterLoss.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2]
  obtain ⟨hX, hC⟩ := Cert.CenterLoss.entries_real _ _ _ (hpre c)
  exact Cert.CenterLoss.Ref.ref_eq_loss _ _ _ hX hC

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
